-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x32 : Shape := ⟨2, ![2097152, 32]⟩
abbrev S2097152x16 : Shape := ⟨2, ![2097152, 16]⟩
abbrev S64x32 : Shape := ⟨2, ![64, 32]⟩
abbrev S16x64 : Shape := ⟨2, ![16, 64]⟩
abbrev S64x31 : Shape := ⟨2, ![64, 31]⟩
abbrev S64x64 : Shape := ⟨2, ![64, 64]⟩
abbrev S3x64 : Shape := ⟨2, ![3, 64]⟩
abbrev S_ : Shape := ⟨0, ![]⟩

class Facts : Prop where
  bcast_S_S2097152x32 : S_.BroadcastsInDim S2097152x32 (![] : Fin 0 → Fin S2097152x32.rank)
  reducesTo_S2097152x32_S_d0_1 : S2097152x32.ReducesTo [0, 1] S_
  h_S_ : 0 < S_.numel
  bcast_S_S2097152x16 : S_.BroadcastsInDim S2097152x16 (![] : Fin 0 → Fin S2097152x16.rank)
  reducesTo_S2097152x16_S_d0_1 : S2097152x16.ReducesTo [0, 1] S_
  bcast_S_S64x32 : S_.BroadcastsInDim S64x32 (![] : Fin 0 → Fin S64x32.rank)
  reducesTo_S64x32_S_d0_1 : S64x32.ReducesTo [0, 1] S_
  bcast_S_S16x64 : S_.BroadcastsInDim S16x64 (![] : Fin 0 → Fin S16x64.rank)
  reducesTo_S16x64_S_d0_1 : S16x64.ReducesTo [0, 1] S_
  bcast_S_S64x31 : S_.BroadcastsInDim S64x31 (![] : Fin 0 → Fin S64x31.rank)
  reducesTo_S64x31_S_d0_1 : S64x31.ReducesTo [0, 1] S_
  bcast_S_S64x64 : S_.BroadcastsInDim S64x64 (![] : Fin 0 → Fin S64x64.rank)
  reducesTo_S64x64_S_d0_1 : S64x64.ReducesTo [0, 1] S_
  bcast_S_S3x64 : S_.BroadcastsInDim S3x64 (![] : Fin 0 → Fin S3x64.rank)
  reducesTo_S3x64_S_d0_1 : S3x64.ReducesTo [0, 1] S_

variable [Facts]

def fn_part2 {F : FTy → Type} [FloatOps F] (main_arg7 : FVec F S3x64 .f32) (main_v33 : IVec S_ 1) : IVec S_ 1 :=
  let main_v34 : FVec F S3x64 .f32 := Host.absf main_arg7
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  main_v38

def fn_part1 {F : FTy → Type} [FloatOps F] (main_arg4 : FVec F S64x31 .f32) (main_arg5 : FVec F S64x64 .f32) (main_arg6 : FVec F S64x64 .f32) (main_arg7 : FVec F S3x64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64x31 .f32 := Host.absf main_arg4
  let main_cst_6 : FVec F S_ .f32 := constant S_ .f32 0x7F800000#32
  let main_v20 : FVec F S64x31 .f32 := broadcastInDim S64x31 ![] bcast_S_S64x31 main_cst_6
  let main_v21 : IVec S64x31 1 := cmpf .olt main_v19 main_v20
  let main_c_7 : IVec S_ 1 := constantI S_ 1 1#1
  let main_v22 : IVec S_ 1 := (fun x v => Host.reduce IntOp.andi x v reducesTo_S64x31_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_v33

def fn {F : FTy → Type} [FloatOps F] (main_arg0 : FVec F S2097152x32 .f32) (main_arg1 : FVec F S2097152x16 .f32) (main_arg2 : FVec F S64x32 .f32) (main_arg3 : FVec F S16x64 .f32) (main_arg4 : FVec F S64x31 .f32) (main_arg5 : FVec F S64x64 .f32) (main_arg6 : FVec F S64x64 .f32) (main_arg7 : FVec F S3x64 .f32) : IVec S_ 1 :=
  let main_v0 : FVec F S2097152x32 .f32 := Host.absf main_arg0
  let main_cst : FVec F S_ .f32 := constant S_ .f32 0x7F800000#32
  let main_v1 : FVec F S2097152x32 .f32 := broadcastInDim S2097152x32 ![] bcast_S_S2097152x32 main_cst
  let main_v2 : IVec S2097152x32 1 := cmpf .olt main_v0 main_v1
  let main_c : IVec S_ 1 := constantI S_ 1 1#1
  let main_v3 : IVec S_ 1 := (fun x v => Host.reduce IntOp.andi x v reducesTo_S2097152x32_S_d0_1 h_S_) main_v2 main_c
  let main_v4 : FVec F S2097152x16 .f32 := Host.absf main_arg1
  let main_cst_0 : FVec F S_ .f32 := constant S_ .f32 0x7F800000#32
  let main_v5 : FVec F S2097152x16 .f32 := broadcastInDim S2097152x16 ![] bcast_S_S2097152x16 main_cst_0
  let main_v6 : IVec S2097152x16 1 := cmpf .olt main_v4 main_v5
  let main_c_1 : IVec S_ 1 := constantI S_ 1 1#1
  let main_v7 : IVec S_ 1 := (fun x v => Host.reduce IntOp.andi x v reducesTo_S2097152x16_S_d0_1 h_S_) main_v6 main_c_1
  let main_v8 : IVec S_ 1 := andi main_v3 main_v7
  let main_v9 : FVec F S64x32 .f32 := Host.absf main_arg2
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg4 main_arg5 main_arg6 main_arg7 main_v13 main_v16
-- ==== Kernel.lean ====
abbrev S2097152x32 : Shape := ⟨2, ![2097152, 32]⟩
abbrev S2097152x16 : Shape := ⟨2, ![2097152, 16]⟩
abbrev S64x32 : Shape := ⟨2, ![64, 32]⟩
abbrev S16x64 : Shape := ⟨2, ![16, 64]⟩
abbrev S64x31 : Shape := ⟨2, ![64, 31]⟩
abbrev S64x64 : Shape := ⟨2, ![64, 64]⟩
abbrev S3x64 : Shape := ⟨2, ![3, 64]⟩
abbrev S2097152x4 : Shape := ⟨2, ![2097152, 4]⟩
abbrev S8192x32 : Shape := ⟨2, ![8192, 32]⟩
abbrev S8192x16 : Shape := ⟨2, ![8192, 16]⟩
abbrev S8192x4 : Shape := ⟨2, ![8192, 4]⟩
abbrev S32x8192 : Shape := ⟨2, ![32, 8192]⟩
abbrev S16x8192 : Shape := ⟨2, ![16, 8192]⟩
abbrev S64x8192 : Shape := ⟨2, ![64, 8192]⟩
abbrev S1x8192 : Shape := ⟨2, ![1, 8192]⟩
abbrev S15x8192 : Shape := ⟨2, ![15, 8192]⟩
abbrev S31x8192 : Shape := ⟨2, ![31, 8192]⟩
abbrev S3x8192 : Shape := ⟨2, ![3, 8192]⟩
abbrev S4x8192 : Shape := ⟨2, ![4, 8192]⟩

abbrev nBuf : Space → Nat
  | .hbm => 15
  | .vmem => 12
  | .smem => 0
  | _ => 0

abbrev bufTy : (tb : Table) → Fin (tcTables nBuf tb) → BufTy
  | .hbm, ⟨0, _⟩ => ⟨S2097152x32, .f32⟩
  | .hbm, ⟨1, _⟩ => ⟨S2097152x16, .f32⟩
  | .hbm, ⟨2, _⟩ => ⟨S64x32, .f32⟩
  | .hbm, ⟨3, _⟩ => ⟨S16x64, .f32⟩
  | .hbm, ⟨4, _⟩ => ⟨S64x31, .f32⟩
  | .hbm, ⟨5, _⟩ => ⟨S64x64, .f32⟩
  | .hbm, ⟨6, _⟩ => ⟨S64x64, .f32⟩
  | .hbm, ⟨7, _⟩ => ⟨S3x64, .f32⟩
  | .hbm, ⟨8, _⟩ => ⟨S64x32, .bf16⟩
  | .hbm, ⟨9, _⟩ => ⟨S16x64, .bf16⟩
  | .hbm, ⟨10, _⟩ => ⟨S64x31, .bf16⟩
  | .hbm, ⟨11, _⟩ => ⟨S64x64, .bf16⟩
  | .hbm, ⟨12, _⟩ => ⟨S64x64, .bf16⟩
  | .hbm, ⟨13, _⟩ => ⟨S3x64, .bf16⟩
  | .hbm, ⟨14, _⟩ => ⟨S2097152x4, .f32⟩
  | .local _ .vmem, ⟨0, _⟩ => ⟨S8192x32, .f32⟩
  | .local _ .vmem, ⟨1, _⟩ => ⟨S8192x32, .f32⟩
  | .local _ .vmem, ⟨2, _⟩ => ⟨S8192x16, .f32⟩
  | .local _ .vmem, ⟨3, _⟩ => ⟨S8192x16, .f32⟩
  | .local _ .vmem, ⟨4, _⟩ => ⟨S64x32, .bf16⟩
  | .local _ .vmem, ⟨5, _⟩ => ⟨S16x64, .bf16⟩
  | .local _ .vmem, ⟨6, _⟩ => ⟨S64x31, .bf16⟩
  | .local _ .vmem, ⟨7, _⟩ => ⟨S64x64, .bf16⟩
  | .local _ .vmem, ⟨8, _⟩ => ⟨S64x64, .bf16⟩
  | .local _ .vmem, ⟨9, _⟩ => ⟨S3x64, .bf16⟩
  | .local _ .vmem, ⟨10, _⟩ => ⟨S8192x4, .f32⟩
  | .local _ .vmem, ⟨11, _⟩ => ⟨S8192x4, .f32⟩
  | _, _ => ⟨S2097152x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x31 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8192x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  inb_S8192x32_S8192x32_0_0 : ∀ a, (![0, 0] : Fin 2 → Nat) a + S8192x32.size a ≤ S8192x32.size a
  h_S8192x32 : 0 < S8192x32.numel
  transposes_S8192x32_p1_0_S32x8192 : S8192x32.Transposes [1, 0] S32x8192
  inb_S8192x16_S8192x16_0_0 : ∀ a, (![0, 0] : Fin 2 → Nat) a + S8192x16.size a ≤ S8192x16.size a
  h_S8192x16 : 0 < S8192x16.numel
  transposes_S8192x16_p1_0_S16x8192 : S8192x16.Transposes [1, 0] S16x8192
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S16x64_S16x64_0_0 : ∀ a, (![0, 0] : Fin 2 → Nat) a + S16x64.size a ≤ S16x64.size a
  h_S16x64 : 0 < S16x64.numel
  shapeCasts_S16x64_S16x64 : S16x64.ShapeCasts S16x64
  slices_S16x8192_o0_0_S1x8192 : S16x8192.Slices ![0, 0] S1x8192
  slices_S16x8192_o1_0_S15x8192 : S16x8192.Slices ![1, 0] S15x8192
  concatenates_S16x8192_S15x8192_S31x8192_d0 : Shape.Concatenates [S16x8192, S15x8192] S31x8192 0
  inb_S64x31_S64x31_0_0 : ∀ a, (![0, 0] : Fin 2 → Nat) a + S64x31.size a ≤ S64x31.size a
  h_S64x31 : 0 < S64x31.numel
  shapeCasts_S64x31_S64x31 : S64x31.ShapeCasts S64x31
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S3x64_S3x64_0_0 : ∀ a, (![0, 0] : Fin 2 → Nat) a + S3x64.size a ≤ S3x64.size a
  h_S3x64 : 0 < S3x64.numel
  shapeCasts_S3x64_S3x64 : S3x64.ShapeCasts S3x64
  concatenates_S3x8192_S1x8192_S4x8192_d0 : Shape.Concatenates [S3x8192, S1x8192] S4x8192 0
  transposes_S4x8192_p1_0_S8192x4 : S4x8192.Transposes [1, 0] S8192x4
  inb_S8192x4_S8192x4_0_0 : ∀ a, (![0, 0] : Fin 2 → Nat) a + S8192x4.size a ≤ S8192x4.size a
  h_S8192x4 : 0 < S8192x4.numel
  dot_S64x32_S32x8192_S64x8192_1_0_0_1_n_n_wf : DotDims.WF S64x32 S32x8192 S64x8192 [1] [0] [0] [1] [] []
  dot_S16x64_S64x8192_S16x8192_1_0_0_1_n_n_wf : DotDims.WF S16x64 S64x8192 S16x8192 [1] [0] [0] [1] [] []
  dot_S64x31_S31x8192_S64x8192_1_0_0_1_n_n_wf : DotDims.WF S64x31 S31x8192 S64x8192 [1] [0] [0] [1] [] []
  dot_S64x64_S64x8192_S64x8192_1_0_0_1_n_n_wf : DotDims.WF S64x64 S64x8192 S64x8192 [1] [0] [0] [1] [] []
  dot_S3x64_S64x8192_S3x8192_1_0_0_1_n_n_wf : DotDims.WF S3x64 S64x8192 S3x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S2097152x32.size a
  hwx0_0 : ∀ i : grid0.Coords, EltTy.bits .f32 = 32 ∨ (Rect.block (s := S2097152x32) S8192x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x16.size a ≤ S2097152x16.size a
  hwx0_1 : ∀ i : grid0.Coords, EltTy.bits .f32 = 32 ∨ (Rect.block (s := S2097152x16) S8192x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .bf16 = 32 ∨ (Rect.block (s := S64x32) S64x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .bf16 = 32 ∨ (Rect.block (s := S16x64) S16x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x31.size a ≤ S64x31.size a
  hwx0_4 : ∀ i : grid0.Coords, EltTy.bits .bf16 = 32 ∨ (Rect.block (s := S64x31) S64x31.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x64.size a ≤ S3x64.size a
  hwx0_7 : ∀ i : grid0.Coords, EltTy.bits .bf16 = 32 ∨ (Rect.block (s := S3x64) S3x64.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8192x4.size a ≤ S2097152x4.size a
  hwx0_8 : ∀ i : grid0.Coords, EltTy.bits .f32 = 32 ∨ (Rect.block (s := S2097152x4) S8192x4.size (cc0_transform_8 i) (hinb0_8 i)).WholeWords (EltTy.packing .f32)

variable [Facts₀]

def dot_S64x32_S32x8192_S64x8192_1_0_0_1_n_n : DotDims S64x32 S32x8192 S64x8192 where
  lhsContracting := [1]
  rhsContracting := [0]
  lhsNonContracting := [0]
  rhsNonContracting := [1]
  lhsBatch := []
  rhsBatch := []
  wf := dot_S64x32_S32x8192_S64x8192_1_0_0_1_n_n_wf
def dot_S16x64_S64x8192_S16x8192_1_0_0_1_n_n : DotDims S16x64 S64x8192 S16x8192 where
  lhsContracting := [1]
  rhsContracting := [0]
  lhsNonContracting := [0]
  rhsNonContracting := [1]
  lhsBatch := []
  rhsBatch := []
  wf := dot_S16x64_S64x8192_S16x8192_1_0_0_1_n_n_wf
def dot_S64x31_S31x8192_S64x8192_1_0_0_1_n_n : DotDims S64x31 S31x8192 S64x8192 where
  lhsContracting := [1]
  rhsContracting := [0]
  lhsNonContracting := [0]
  rhsNonContracting := [1]
  lhsBatch := []
  rhsBatch := []
  wf := dot_S64x31_S31x8192_S64x8192_1_0_0_1_n_n_wf
def dot_S64x64_S64x8192_S64x8192_1_0_0_1_n_n : DotDims S64x64 S64x8192 S64x8192 where
  lhsContracting := [1]
  rhsContracting := [0]
  lhsNonContracting := [0]
  rhsNonContracting := [1]
  lhsBatch := []
  rhsBatch := []
  wf := dot_S64x64_S64x8192_S64x8192_1_0_0_1_n_n_wf
def dot_S3x64_S64x8192_S3x8192_1_0_0_1_n_n : DotDims S3x64 S64x8192 S3x8192 where
  lhsContracting := [1]
  rhsContracting := [0]
  lhsNonContracting := [0]
  rhsNonContracting := [1]
  lhsBatch := []
  rhsBatch := []
  wf := dot_S3x64_S64x8192_S3x8192_1_0_0_1_n_n_wf

abbrev win0_0 : Pipeline.Window sig grid0 :=
  Pipeline.Window.ofSpec (Memref.whole main_arg0) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S64x31.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S3x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S8192x4.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2097152x32 : Shape := ⟨2, ![2097152, 32]⟩
abbrev S2097152x16 : Shape := ⟨2, ![2097152, 16]⟩
abbrev S64x32 : Shape := ⟨2, ![64, 32]⟩
abbrev S16x64 : Shape := ⟨2, ![16, 64]⟩
abbrev S64x31 : Shape := ⟨2, ![64, 31]⟩
abbrev S64x64 : Shape := ⟨2, ![64, 64]⟩
abbrev S3x64 : Shape := ⟨2, ![3, 64]⟩
abbrev S32x64 : Shape := ⟨2, ![32, 64]⟩
abbrev S2097152x64 : Shape := ⟨2, ![2097152, 64]⟩
abbrev S_ : Shape := ⟨0, ![]⟩
abbrev S64x16 : Shape := ⟨2, ![64, 16]⟩
abbrev S2097152x1 : Shape := ⟨2, ![2097152, 1]⟩
abbrev S2097152 : Shape := ⟨1, ![2097152]⟩
abbrev S2097152x15 : Shape := ⟨2, ![2097152, 15]⟩
abbrev S2097152x31 : Shape := ⟨2, ![2097152, 31]⟩
abbrev S31x64 : Shape := ⟨2, ![31, 64]⟩
abbrev S64x3 : Shape := ⟨2, ![64, 3]⟩
abbrev S2097152x3 : Shape := ⟨2, ![2097152, 3]⟩
abbrev S2097152x4 : Shape := ⟨2, ![2097152, 4]⟩

abbrev nBuf : Space → Nat
  | .hbm => 38
  | .vmem => 0
  | .smem => 0
  | _ => 0

abbrev bufTy : (tb : Table) → Fin (tcTables nBuf tb) → BufTy
  | .hbm, ⟨0, _⟩ => ⟨S2097152x32, .f32⟩
  | .hbm, ⟨1, _⟩ => ⟨S2097152x16, .f32⟩
  | .hbm, ⟨2, _⟩ => ⟨S64x32, .f32⟩
  | .hbm, ⟨3, _⟩ => ⟨S16x64, .f32⟩
  | .hbm, ⟨4, _⟩ => ⟨S64x31, .f32⟩
  | .hbm, ⟨5, _⟩ => ⟨S64x64, .f32⟩
  | .hbm, ⟨6, _⟩ => ⟨S64x64, .f32⟩
  | .hbm, ⟨7, _⟩ => ⟨S3x64, .f32⟩
  | .hbm, ⟨8, _⟩ => ⟨S32x64, .f32⟩
  | .hbm, ⟨9, _⟩ => ⟨S2097152x64, .f32⟩
  | .hbm, ⟨10, _⟩ => ⟨S_, .f32⟩
  | .hbm, ⟨11, _⟩ => ⟨S2097152x64, .f32⟩
  | .hbm, ⟨12, _⟩ => ⟨S2097152x64, .f32⟩
  | .hbm, ⟨13, _⟩ => ⟨S64x16, .f32⟩
  | .hbm, ⟨14, _⟩ => ⟨S2097152x16, .f32⟩
  | .hbm, ⟨15, _⟩ => ⟨S2097152x1, .f32⟩
  | .hbm, ⟨16, _⟩ => ⟨S2097152, .f32⟩
  | .hbm, ⟨17, _⟩ => ⟨S2097152x15, .f32⟩
  | .hbm, ⟨18, _⟩ => ⟨S2097152x31, .f32⟩
  | .hbm, ⟨19, _⟩ => ⟨S31x64, .f32⟩
  | .hbm, ⟨20, _⟩ => ⟨S2097152x64, .f32⟩
  | .hbm, ⟨21, _⟩ => ⟨S_, .f32⟩
  | .hbm, ⟨22, _⟩ => ⟨S2097152x64, .f32⟩
  | .hbm, ⟨23, _⟩ => ⟨S2097152x64, .f32⟩
  | .hbm, ⟨24, _⟩ => ⟨S64x64, .f32⟩
  | .hbm, ⟨25, _⟩ => ⟨S2097152x64, .f32⟩
  | .hbm, ⟨26, _⟩ => ⟨S_, .f32⟩
  | .hbm, ⟨27, _⟩ => ⟨S2097152x64, .f32⟩
  | .hbm, ⟨28, _⟩ => ⟨S2097152x64, .f32⟩
  | .hbm, ⟨29, _⟩ => ⟨S64x64, .f32⟩
  | .hbm, ⟨30, _⟩ => ⟨S2097152x64, .f32⟩
  | .hbm, ⟨31, _⟩ => ⟨S_, .f32⟩
  | .hbm, ⟨32, _⟩ => ⟨S2097152x64, .f32⟩
  | .hbm, ⟨33, _⟩ => ⟨S2097152x64, .f32⟩
  | .hbm, ⟨34, _⟩ => ⟨S64x3, .f32⟩
  | .hbm, ⟨35, _⟩ => ⟨S2097152x3, .f32⟩
  | .hbm, ⟨36, _⟩ => ⟨S2097152x1, .f32⟩
  | .hbm, ⟨37, _⟩ => ⟨S2097152x4, .f32⟩
  | _, _ => ⟨S2097152x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_cst : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call2_cst : Ref sig .tc := ⟨.hbm, 26, rfl⟩
abbrev main_call2_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call3_cst : Ref sig .tc := ⟨.hbm, 31, rfl⟩
abbrev main_call3_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]

class Facts₀ : Prop where
  transposes_S64x32_S32x64_1_0 : S64x32.Transposes [1, 0] S32x64
  bcast_S_S2097152x64 : S_.BroadcastsInDim S2097152x64 (![] : Fin 0 → Fin S2097152x64.rank)
  transposes_S16x64_S64x16_1_0 : S16x64.Transposes [1, 0] S64x16
  slices_S2097152x16_S2097152x1_0_0 : S2097152x16.Slices ![0, 0] S2097152x1
  shapeCasts_S2097152x1_S2097152 : S2097152x1.ShapeCasts S2097152
  slices_S2097152x16_S2097152x15_0_1 : S2097152x16.Slices ![0, 1] S2097152x15
  concatenates_S2097152x16_S2097152x15_S2097152x31_d1 : Shape.Concatenates [S2097152x16, S2097152x15] S2097152x31 1
  transposes_S64x31_S31x64_1_0 : S64x31.Transposes [1, 0] S31x64
  transposes_S64x64_S64x64_1_0 : S64x64.Transposes [1, 0] S64x64
  transposes_S3x64_S64x3_1_0 : S3x64.Transposes [1, 0] S64x3
  bcast_S2097152_S2097152x1_0 : S2097152.BroadcastsInDim S2097152x1 (![0] : Fin 1 → Fin S2097152x1.rank)
  concatenates_S2097152x3_S2097152x1_S2097152x4_d1 : Shape.Concatenates [S2097152x3, S2097152x1] S2097152x4 1
  dot_S2097152x32_S32x64_S2097152x64_1_0_0_1_n_n_wf : DotDims.WF S2097152x32 S32x64 S2097152x64 [1] [0] [0] [1] [] []
  dot_S2097152x64_S64x16_S2097152x16_1_0_0_1_n_n_wf : DotDims.WF S2097152x64 S64x16 S2097152x16 [1] [0] [0] [1] [] []
  dot_S2097152x31_S31x64_S2097152x64_1_0_0_1_n_n_wf : DotDims.WF S2097152x31 S31x64 S2097152x64 [1] [0] [0] [1] [] []
  dot_S2097152x64_S64x64_S2097152x64_1_0_0_1_n_n_wf : DotDims.WF S2097152x64 S64x64 S2097152x64 [1] [0] [0] [1] [] []
  dot_S2097152x64_S64x3_S2097152x3_1_0_0_1_n_n_wf : DotDims.WF S2097152x64 S64x3 S2097152x3 [1] [0] [0] [1] [] []

variable [Facts₀]

def dot_S2097152x32_S32x64_S2097152x64_1_0_0_1_n_n : DotDims S2097152x32 S32x64 S2097152x64 where
  lhsContracting := [1]
  rhsContracting := [0]
  lhsNonContracting := [0]
  rhsNonContracting := [1]
  lhsBatch := []
  rhsBatch := []
  wf := dot_S2097152x32_S32x64_S2097152x64_1_0_0_1_n_n_wf
def dot_S2097152x64_S64x16_S2097152x16_1_0_0_1_n_n : DotDims S2097152x64 S64x16 S2097152x16 where
  lhsContracting := [1]
  rhsContracting := [0]
  lhsNonContracting := [0]
  rhsNonContracting := [1]
  lhsBatch := []
  rhsBatch := []
  wf := dot_S2097152x64_S64x16_S2097152x16_1_0_0_1_n_n_wf
def dot_S2097152x31_S31x64_S2097152x64_1_0_0_1_n_n : DotDims S2097152x31 S31x64 S2097152x64 where
  lhsContracting := [1]
  rhsContracting := [0]
  lhsNonContracting := [0]
  rhsNonContracting := [1]
  lhsBatch := []
  rhsBatch := []
  wf := dot_S2097152x31_S31x64_S2097152x64_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x3_S2097152x3_1_0_0_1_n_n : DotDims S2097152x64 S64x3 S2097152x3 where
  lhsContracting := [1]
  rhsContracting := [0]
  lhsNonContracting := [0]
  rhsNonContracting := [1]
  lhsBatch := []
  rhsBatch := []
  wf := dot_S2097152x64_S64x3_S2097152x3_1_0_0_1_n_n_wf

class Facts : Prop extends Facts₀ where

variable [Facts]
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«115075_j89790586290648_2_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.LibPlainRecord.lean ====
/-
  A rank-2 product record whose dimension numbers are the plain ones — the left operand's second axis contracted with the
  right operand's first, no batch axis, the left rows then the right columns kept — reads as the textbook product:
  its contraction has one axis of extent K, the left operand is read at (row, k) and the right at (k, column).
-/
import proofs.«115075_j89790586290648_2_alg».proof.Proof.LibDenseLayer

noncomputable section

namespace Cert.Lib.DenseLayer

open Idealize.ShloMosaic Idealize.ShloMosaic.ValueIdx

/-- The six coordinate facts from the six lists of the dimension numbers. -/
theorem Plain.of_fields {M K N : Nat} (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = []) : Plain d where
  rank := by rw [d.rank_contr, h1]; rfl
  size := by
    have : d.contr = Shape.ofList ([1].map (⟨2, ![M, K]⟩ : Shape).size) := by unfold DotDims.contr; rw [h1]
    rw [show d.contr.size ⟨0, by rw [d.rank_contr, h1]; exact Nat.one_pos⟩ = K from by
      unfold DotDims.contr; simp [h1, Shape.ofList]]
  l0 := fun i q => by
    have key : ∀ (n : Nat) (hn : n < 2), n = 0 → (i ⟨n, hn⟩).val = (i 0).val := fun n hn h0 => by subst h0; rfl
    unfold DotDims.lhsIdx
    simp only [h5, h3, List.not_mem_nil, dite_false, List.mem_singleton, dite_true, Fin.val_cast]
    exact key _ _ (by simp [h5, h3])
  l1 := fun i q => d.lhsIdx_val_of_single h1 i q
  r0 := fun i q => d.rhsIdx_val_of_single h2 i q
  r1 := fun i q => by
    have key : ∀ (n : Nat) (hn : n < 2), n = 1 → (i ⟨n, hn⟩).val = (i 1).val := fun n hn h0 => by subst h0; rfl
    unfold DotDims.rhsIdx
    simp only [h6, h4, List.not_mem_nil, dite_false, List.mem_singleton, dite_true, Fin.val_cast]
    exact key _ _ (by simp [h5, h3, h4])

/-- Entrywise products of blocks of rows. -/
theorem RowBlk.mul {Mb M K : Nat} {off : Nat} {a b : FVec Ideal ⟨2, ![Mb, K]⟩ .f32} {A B : FVec Ideal ⟨2, ![M, K]⟩ .f32}
    (ha : RowBlk off a A) (hb : RowBlk off b B) : RowBlk off (mulf a b) (mulf A B) := fun r hr k => by
  rw [mulf_apply, mulf_apply, ha r hr k, hb r hr k]

/-- A reshape to the same shape changes nothing. -/
theorem RowBlk.castSelf {Mb M K : Nat} {off : Nat} {a : (⟨2, ![Mb, K]⟩ : Shape).Idx → EReal} {A : (⟨2, ![M, K]⟩ : Shape).Idx → EReal}
    (ha : RowBlk off a A) (h : (⟨2, ![Mb, K]⟩ : Shape).ShapeCasts ⟨2, ![Mb, K]⟩) : RowBlk off (shapeCast ⟨2, ![Mb, K]⟩ a h) A := by
  rw [shapeCast_self]; exact ha

/-- An entrywise function of a block of rows. -/
theorem RowBlk.map {Mb M K : Nat} {off : Nat} {a : (⟨2, ![Mb, K]⟩ : Shape).Idx → EReal} {A : (⟨2, ![M, K]⟩ : Shape).Idx → EReal}
    (ha : RowBlk off a A) (f : EReal → EReal) : RowBlk off (fun i => f (a i)) (fun i => f (A i)) := fun r hr k => by
  show f (a (ix2 r k)) = f (A (ix2 ⟨off + r.val, hr⟩ k)); rw [ha r hr k]

end Cert.Lib.DenseLayer

end
-- ==== Proof.LibRowFamily.lean ====
/-
  Dense layers read one sample at a time, at the extended reals.

  A batch of samples, each a vector of K features, can be stored sample-major — a matrix [M, K] whose ROWS are the
  samples — or feature-major — a matrix [K, T] whose COLUMNS are the samples. `Rows A f` and `Cols A f` say that the
  matrix `A` holds the family `f` of sample vectors in the one layout or the other. Every operation of a multilayer
  perceptron acts on each sample by itself: a product with a weight matrix stored [out, in] (on the right as its
  transpose in the sample-major layout, on the left as it is in the feature-major one), a maximum with zero, a slice
  of the features, a concatenation of two feature vectors. The lemmas below carry the two relations through each of
  these operations, so that both layouts end at the same function of the sample (`dense`, `relu`, `part`, `join`).
  The only law used is the commutativity of the product (weight times feature against feature times weight); no
  finiteness is asked of any entry.
-/
import Idealize.ShloMosaic.PureOps.Ideal.Laws
import Idealize.ShloMosaic.Lib.ValueIdx
import Idealize.ShloMosaic.Lib.Pipeline.Value
import proofs.«115075_j89790586290648_2_alg».proof.Proof.LibPlainRecord

noncomputable section

open scoped BigOperators

namespace Cert.Lib.RowFamily

open Idealize.ShloMosaic Idealize.ShloMosaic.ValueIdx Cert.Lib.PlainDot Cert.Lib.DenseLayer

/-! ## One sample through the layers -/

/-- A dense layer without bias on one sample: output o is the sum over k of x(k) · w(o, k), the weights stored
    [out, in]. -/
def dense {K N : Nat} (x : Fin K → EReal) (w : Fin N → Fin K → EReal) : Fin N → EReal :=
  fun o => ∑ k : Fin K, x k * w o k

/-- The maximum with zero, entry by entry. -/
def relu {N : Nat} (v : Fin N → EReal) : Fin N → EReal := fun o => max (v o) 0

/-- The L' entries of a vector from position o on. -/
def part {L : Nat} (o L' : Nat) (h : o + L' ≤ L) (v : Fin L → EReal) : Fin L' → EReal :=
  fun q => v ⟨o + q.val, by have := q.isLt; omega⟩

/-- Two vectors laid end to end. -/
def join {A B C : Nat} (h : C = A + B) (u : Fin A → EReal) (v : Fin B → EReal) : Fin C → EReal :=
  fun q => if hq : q.val < A then u ⟨q.val, hq⟩ else v ⟨q.val - A, by have := q.isLt; omega⟩

/-! ## The two layouts -/

/-- The rows of the matrix are the samples. -/
def Rows {M K : Nat} (A : (⟨2, ![M, K]⟩ : Shape).Idx → EReal) (f : Fin M → Fin K → EReal) : Prop :=
  ∀ (n : Fin M) (k : Fin K), A (ix2 n k) = f n k

/-- The columns of the matrix are the samples. -/
def Cols {K T : Nat} (A : (⟨2, ![K, T]⟩ : Shape).Idx → EReal) (f : Fin T → Fin K → EReal) : Prop :=
  ∀ (k : Fin K) (r : Fin T), A (ix2 k r) = f r k

/-- Every matrix holds its own rows. -/
theorem Rows.self {M K : Nat} (A : (⟨2, ![M, K]⟩ : Shape).Idx → EReal) : Rows A (fun n k => A (ix2 n k)) :=
  fun _ _ => rfl

/-! ## Re-laid matrices read at a pair of coordinates -/

/-- A transposed matrix at (a, b) is the matrix at (b, a). -/
theorem transpose_ix2 {α : Type} {M N : Nat} (x : (⟨2, ![M, N]⟩ : Shape).Idx → α)
    (h : (⟨2, ![M, N]⟩ : Shape).Transposes [1, 0] ⟨2, ![N, M]⟩) (a : Fin N) (b : Fin M) :
    transpose ⟨2, ![N, M]⟩ [1, 0] x h (ix2 a b) = x (ix2 b a) :=
  transpose_apply [1, 0] x h (ix2 a b) (ix2 b a) (fun c => match c with
    | ⟨0, _⟩ => rfl
    | ⟨1, _⟩ => rfl)

/-- A contiguous sub-matrix starting at (o0, o1), at (a, b), is the matrix at (o0 + a, o1 + b). -/
theorem slice_ix2 {α : Type} {M N M' N' : Nat} (o0 o1 : Nat) (x : (⟨2, ![M, N]⟩ : Shape).Idx → α)
    (h : (⟨2, ![M, N]⟩ : Shape).Slices ![o0, o1] ⟨2, ![M', N']⟩) (a : Fin M') (b : Fin N')
    (ha : o0 + a.val < M) (hb : o1 + b.val < N) :
    extractStridedSlice ⟨2, ![M', N']⟩ ![o0, o1] x h (ix2 a b) = x (ix2 ⟨o0 + a.val, ha⟩ ⟨o1 + b.val, hb⟩) :=
  extractStridedSlice_apply ![o0, o1] x h (ix2 a b) (ix2 ⟨o0 + a.val, ha⟩ ⟨o1 + b.val, hb⟩) (fun c => match c with
    | ⟨0, _⟩ => rfl
    | ⟨1, _⟩ => rfl)

/-- Two matrices stacked one above the other, read in the upper one. -/
theorem stack_upper {α : Type} {A B C T : Nat} (x₁ : (⟨2, ![A, T]⟩ : Shape).Idx → α) (x₂ : (⟨2, ![B, T]⟩ : Shape).Idx → α)
    (h : Shape.Concatenates [⟨2, ![A, T]⟩, ⟨2, ![B, T]⟩] ⟨2, ![C, T]⟩ 0) (q : Fin C) (r : Fin T) (hq : q.val < A) :
    concatenate ⟨2, ![C, T]⟩ 0 [⟨⟨2, ![A, T]⟩, x₁⟩, ⟨⟨2, ![B, T]⟩, x₂⟩] h (ix2 q r) = x₁ (ix2 ⟨q.val, hq⟩ r) :=
  concatenate_pair_apply_left 0 x₁ x₂ h (ix2 q r) rfl (ix2 ⟨q.val, hq⟩ r) (fun b => match b with
    | ⟨0, _⟩ => rfl
    | ⟨1, _⟩ => rfl)

/-- Two matrices stacked one above the other, read in the lower one. -/
theorem stack_lower {α : Type} {A B C T : Nat} (x₁ : (⟨2, ![A, T]⟩ : Shape).Idx → α) (x₂ : (⟨2, ![B, T]⟩ : Shape).Idx → α)
    (h : Shape.Concatenates [⟨2, ![A, T]⟩, ⟨2, ![B, T]⟩] ⟨2, ![C, T]⟩ 0) (q : Fin C) (r : Fin T) (hq : A ≤ q.val)
    (hB : q.val - A < B) :
    concatenate ⟨2, ![C, T]⟩ 0 [⟨⟨2, ![A, T]⟩, x₁⟩, ⟨⟨2, ![B, T]⟩, x₂⟩] h (ix2 q r) = x₂ (ix2 ⟨q.val - A, hB⟩ r) :=
  concatenate_pair_apply_right 0 x₁ x₂ h (ix2 q r) rfl rfl (ix2 ⟨q.val - A, hB⟩ r)
    (fun b hb => match b, hb with
      | ⟨0, _⟩, hb => absurd rfl hb
      | ⟨1, _⟩, _ => rfl)
    (by show q.val - A + A = q.val; omega)

/-- Two matrices set side by side, read in the left one. -/
theorem beside_left {α : Type} {A B C M : Nat} (x₁ : (⟨2, ![M, A]⟩ : Shape).Idx → α) (x₂ : (⟨2, ![M, B]⟩ : Shape).Idx → α)
    (h : Shape.Concatenates [⟨2, ![M, A]⟩, ⟨2, ![M, B]⟩] ⟨2, ![M, C]⟩ 1) (n : Fin M) (q : Fin C) (hq : q.val < A) :
    concatenate ⟨2, ![M, C]⟩ 1 [⟨⟨2, ![M, A]⟩, x₁⟩, ⟨⟨2, ![M, B]⟩, x₂⟩] h (ix2 n q) = x₁ (ix2 n ⟨q.val, hq⟩) :=
  concatenate_pair_apply_left 1 x₁ x₂ h (ix2 n q) rfl (ix2 n ⟨q.val, hq⟩) (fun b => match b with
    | ⟨0, _⟩ => rfl
    | ⟨1, _⟩ => rfl)

/-- Two matrices set side by side, read in the right one. -/
theorem beside_right {α : Type} {A B C M : Nat} (x₁ : (⟨2, ![M, A]⟩ : Shape).Idx → α) (x₂ : (⟨2, ![M, B]⟩ : Shape).Idx → α)
    (h : Shape.Concatenates [⟨2, ![M, A]⟩, ⟨2, ![M, B]⟩] ⟨2, ![M, C]⟩ 1) (n : Fin M) (q : Fin C) (hq : A ≤ q.val)
    (hB : q.val - A < B) :
    concatenate ⟨2, ![M, C]⟩ 1 [⟨⟨2, ![M, A]⟩, x₁⟩, ⟨⟨2, ![M, B]⟩, x₂⟩] h (ix2 n q) = x₂ (ix2 n ⟨q.val - A, hB⟩) :=
  concatenate_pair_apply_right 1 x₁ x₂ h (ix2 n q) rfl rfl (ix2 n ⟨q.val - A, hB⟩)
    (fun b hb => match b, hb with
      | ⟨0, _⟩, _ => rfl
      | ⟨1, _⟩, hb => absurd rfl hb)
    (by show q.val - A + A = q.val; omega)

/-! ## A matrix unit's product into zero, read at a pair of coordinates -/

/-- For a record with the plain dimension numbers the product accumulated into the zero matrix is, at (a, c), the sum
    over k of l(a, k) · r(k, c), whatever the operands' float formats. -/
theorem Plain.matmul_apply {M K N : Nat} {φ₁ φ₂ : FTy} {d : DotDims ⟨2, ![M, K]⟩ ⟨2, ![K, N]⟩ ⟨2, ![M, N]⟩} (hd : Plain d)
    (l : FVec Ideal ⟨2, ![M, K]⟩ φ₁) (r : FVec Ideal ⟨2, ![K, N]⟩ φ₂) (a : Fin M) (c : Fin N) :
    matmul d none l r (constant ⟨2, ![M, N]⟩ .f32 0x00000000#32) (ix2 a c) = ∑ k : Fin K, l (ix2 a k) * r (ix2 k c) :=
  (Ideal.matmul_constant_zero_apply d none l r (ix2 a c)).trans
    (contraction_sum d hd.rank hd.size hd.l0 hd.l1 hd.r0 hd.r1 l r a c)

/-! ## The feature-major layout through each operation -/

/-- The transpose of a sample-major matrix is feature-major, with the same samples. -/
theorem Cols.of_transpose {K T : Nat} (x : (⟨2, ![T, K]⟩ : Shape).Idx → EReal)
    (h : (⟨2, ![T, K]⟩ : Shape).Transposes [1, 0] ⟨2, ![K, T]⟩) :
    Cols (transpose ⟨2, ![K, T]⟩ [1, 0] x h) (fun r k => x (ix2 r k)) :=
  fun k r => transpose_ix2 x h k r

/-- And back: the transpose of a feature-major matrix is sample-major. -/
theorem Cols.transpose {K T : Nat} {A : (⟨2, ![K, T]⟩ : Shape).Idx → EReal} {f : Fin T → Fin K → EReal} (hA : Cols A f)
    (h : (⟨2, ![K, T]⟩ : Shape).Transposes [1, 0] ⟨2, ![T, K]⟩) :
    Rows (Idealize.ShloMosaic.transpose ⟨2, ![T, K]⟩ [1, 0] A h) f :=
  fun r k => (transpose_ix2 A h r k).trans (hA k r)

/-- A change of float format changes no entry. -/
theorem Cols.truncf {K T : Nat} {φ ψ : FTy} {A : FVec Ideal ⟨2, ![K, T]⟩ φ} {f : Fin T → Fin K → EReal} (hA : Cols A f)
    (h : ψ.bits < φ.bits) : Cols (Idealize.ShloMosaic.truncf ψ A h) f :=
  fun k r => hA k r

/-- The weights [out, in] on the left of a feature-major matrix: every sample goes through the dense layer. -/
theorem Cols.matmul {N K T : Nat} {φ₁ φ₂ : FTy} {d : DotDims ⟨2, ![N, K]⟩ ⟨2, ![K, T]⟩ ⟨2, ![N, T]⟩} (hd : Plain d)
    {W : FVec Ideal ⟨2, ![N, K]⟩ φ₁} {w : Fin N → Fin K → EReal} (hW : Rows W w)
    {A : FVec Ideal ⟨2, ![K, T]⟩ φ₂} {f : Fin T → Fin K → EReal} (hA : Cols A f) :
    Cols (Idealize.ShloMosaic.matmul d none W A (constant ⟨2, ![N, T]⟩ .f32 0x00000000#32)) (fun r => dense (f r) w) :=
  fun o r => (Plain.matmul_apply hd W A o r).trans
    (Finset.sum_congr rfl fun k _ => by rw [hW o k, hA k r, mul_comm])

/-- The maximum with a splat of the zero word. -/
theorem Cols.relu {K T : Nat} {A : FVec Ideal ⟨2, ![K, T]⟩ .f32} {f : Fin T → Fin K → EReal} (hA : Cols A f) :
    Cols (maximumf A (broadcast ⟨2, ![K, T]⟩ (FloatOps.ofBits (F := Ideal) .f32 0x00000000#32))) (fun r => relu (f r)) :=
  fun k r => by
    rw [maximumf_apply, hA k r]
    show max (f r k) (Ideal.ofBits .f32 0x00000000#32) = max (f r k) 0
    rw [Ideal.ofBits_zero_f32]

/-- A slice of the features. -/
theorem Cols.part {L L' T : Nat} {A : (⟨2, ![L, T]⟩ : Shape).Idx → EReal} {f : Fin T → Fin L → EReal} (hA : Cols A f)
    (o : Nat) (hL : o + L' ≤ L) (h : (⟨2, ![L, T]⟩ : Shape).Slices ![o, 0] ⟨2, ![L', T]⟩) :
    Cols (extractStridedSlice ⟨2, ![L', T]⟩ ![o, 0] A h) (fun r => part o L' hL (f r)) :=
  fun q r => by
    have hq := q.isLt
    have hr := r.isLt
    rw [slice_ix2 o 0 A h q r (by omega) (by omega)]
    have e : (⟨0 + r.val, by omega⟩ : Fin T) = r := Fin.ext (Nat.zero_add _)
    rw [e]
    exact hA _ r

/-- Two feature-major matrices stacked: every sample's two vectors laid end to end. -/
theorem Cols.join {A B C T : Nat} {X : (⟨2, ![A, T]⟩ : Shape).Idx → EReal} {Y : (⟨2, ![B, T]⟩ : Shape).Idx → EReal}
    {f : Fin T → Fin A → EReal} {g : Fin T → Fin B → EReal} (hX : Cols X f) (hY : Cols Y g) (hC : C = A + B)
    (h : Shape.Concatenates [⟨2, ![A, T]⟩, ⟨2, ![B, T]⟩] ⟨2, ![C, T]⟩ 0) :
    Cols (concatenate ⟨2, ![C, T]⟩ 0 [⟨⟨2, ![A, T]⟩, X⟩, ⟨⟨2, ![B, T]⟩, Y⟩] h) (fun r => join hC (f r) (g r)) :=
  fun q r => by
    have hq' := q.isLt
    show _ = RowFamily.join hC (f r) (g r) q
    unfold RowFamily.join
    by_cases hq : q.val < A
    · rw [stack_upper X Y h q r hq, dif_pos hq]; exact hX _ r
    · rw [stack_lower X Y h q r (Nat.le_of_not_lt hq) (by omega), dif_neg hq]; exact hY _ r

/-! ## The sample-major layout through each operation -/

/-- The weights [out, in], transposed, on the right of a sample-major matrix: every sample goes through the dense
    layer. -/
theorem Rows.dot {M K N : Nat} {d : DotDims ⟨2, ![M, K]⟩ ⟨2, ![K, N]⟩ ⟨2, ![M, N]⟩} (hd : Plain d)
    {A : FVec Ideal ⟨2, ![M, K]⟩ .f32} {f : Fin M → Fin K → EReal} (hA : Rows A f)
    {W : FVec Ideal ⟨2, ![N, K]⟩ .f32} {w : Fin N → Fin K → EReal} (hW : Rows W w)
    (hT : (⟨2, ![N, K]⟩ : Shape).Transposes [1, 0] ⟨2, ![K, N]⟩) :
    Rows (Host.dotGeneral d none A (Idealize.ShloMosaic.transpose ⟨2, ![K, N]⟩ [1, 0] W hT)) (fun n => dense (f n) w) :=
  fun n o => (hd.dot_apply A _ n o).trans
    (Finset.sum_congr rfl fun k _ => by rw [transpose_ix2 W hT k o, hA n k, hW o k])

/-- The maximum with a broadcast of the zero constant. -/
theorem Rows.relu {M N : Nat} {A : FVec Ideal ⟨2, ![M, N]⟩ .f32} {f : Fin M → Fin N → EReal} (hA : Rows A f)
    (hb : (⟨0, ![]⟩ : Shape).BroadcastsInDim ⟨2, ![M, N]⟩ ![]) :
    Rows (maximumf A (broadcastInDim ⟨2, ![M, N]⟩ ![] hb (constant (F := Ideal) ⟨0, ![]⟩ .f32 0x00000000#32)))
      (fun n => relu (f n)) :=
  fun n o => by
    rw [maximumf_apply, hA n o, broadcastInDim_apply ![] hb _ (ix2 n o) ix0 (fun a => a.elim0), constant_apply,
      Ideal.ofBits_zero_f32]
    rfl

/-- A slice of the features. -/
theorem Rows.part {L L' M : Nat} {A : (⟨2, ![M, L]⟩ : Shape).Idx → EReal} {f : Fin M → Fin L → EReal} (hA : Rows A f)
    (o : Nat) (hL : o + L' ≤ L) (h : (⟨2, ![M, L]⟩ : Shape).Slices ![0, o] ⟨2, ![M, L']⟩) :
    Rows (extractStridedSlice ⟨2, ![M, L']⟩ ![0, o] A h) (fun n => part o L' hL (f n)) :=
  fun n q => by
    have hq := q.isLt
    have hn := n.isLt
    rw [slice_ix2 0 o A h n q (by omega) (by omega)]
    have e : (⟨0 + n.val, by omega⟩ : Fin M) = n := Fin.ext (Nat.zero_add _)
    rw [e]
    exact hA n _

/-- Two sample-major matrices side by side: every sample's two vectors laid end to end. -/
theorem Rows.join {A B C M : Nat} {X : (⟨2, ![M, A]⟩ : Shape).Idx → EReal} {Y : (⟨2, ![M, B]⟩ : Shape).Idx → EReal}
    {f : Fin M → Fin A → EReal} {g : Fin M → Fin B → EReal} (hX : Rows X f) (hY : Rows Y g) (hC : C = A + B)
    (h : Shape.Concatenates [⟨2, ![M, A]⟩, ⟨2, ![M, B]⟩] ⟨2, ![M, C]⟩ 1) :
    Rows (concatenate ⟨2, ![M, C]⟩ 1 [⟨⟨2, ![M, A]⟩, X⟩, ⟨⟨2, ![M, B]⟩, Y⟩] h) (fun n => join hC (f n) (g n)) :=
  fun n q => by
    have hq' := q.isLt
    show _ = RowFamily.join hC (f n) (g n) q
    unfold RowFamily.join
    by_cases hq : q.val < A
    · rw [beside_left X Y h n q hq, dif_pos hq]; exact hX n _
    · rw [beside_right X Y h n q (Nat.le_of_not_lt hq) (by omega), dif_neg hq]; exact hY n _

/-- A one-column matrix flattened to a vector and set up again as one column is the same column. -/
theorem Rows.column_again {M : Nat} {S : (⟨2, ![M, 1]⟩ : Shape).Idx → EReal} {g : Fin M → Fin 1 → EReal} (hS : Rows S g)
    (hs : (⟨2, ![M, 1]⟩ : Shape).ShapeCasts ⟨1, ![M]⟩) (hb : (⟨1, ![M]⟩ : Shape).BroadcastsInDim ⟨2, ![M, 1]⟩ ![0]) :
    Rows (broadcastInDim ⟨2, ![M, 1]⟩ ![0] hb (shapeCast ⟨1, ![M]⟩ S hs)) g :=
  fun n q => by
    have hq := q.isLt
    have hn := n.isLt
    have e : q = 0 := Fin.ext (by show q.val = 0; omega)
    subst e
    rw [broadcastInDim_apply ![0] hb _ (ix2 n 0) (ix1 n) (fun a => match a with
        | ⟨0, _⟩ => by
          show n.val = if M = 1 then 0 else n.val
          split
          · omega
          · rfl),
      shapeCast_apply S hs (ix1 n) (ix2 n 0) (by
        rw [Shape.rowMajor_val_two, Shape.rowMajor_val_one]
        show n.val * 1 + 0 = n.val
        omega)]
    exact hS n 0

end Cert.Lib.RowFamily

end
-- ==== Proof.MlpSample.lean ====
/-
  The function both programs compute, one sample at a time.

  A sample is a vector of 32 hash-grid features and a vector of 16 spherical-harmonics features. The density head is
  two dense layers, 32 → 64 → 16, with a maximum with zero between them; its first output is the density, its other
  fifteen are laid after the 16 spherical-harmonics features and go through the colour head, four dense layers
  31 → 64 → 64 → 64 → 3 with a maximum with zero after each of the first three. The sample's result is the three
  colours followed by the density. All weights are stored [out, in].
-/
import proofs.«115075_j89790586290648_2_alg».proof.Proof.LibRowFamily

noncomputable section

namespace Cert.Mlp

open Idealize.ShloMosaic Idealize.ShloMosaic.ValueIdx Cert.Lib.RowFamily

/-- The density head's sixteen outputs for one sample. -/
def density (hrow : Fin 32 → EReal) (d0 : Fin 64 → Fin 32 → EReal) (d1 : Fin 16 → Fin 64 → EReal) : Fin 16 → EReal :=
  dense (relu (dense hrow d0)) d1

/-- The colour head's three outputs for one sample, from its 31 inputs. -/
def colour (x : Fin 31 → EReal) (c0 : Fin 64 → Fin 31 → EReal) (c1 c2 : Fin 64 → Fin 64 → EReal)
    (c3 : Fin 3 → Fin 64 → EReal) : Fin 3 → EReal :=
  dense (relu (dense (relu (dense (relu (dense x c0)) c1)) c2)) c3

/-- One sample's four results: the three colours, then the density. -/
def sampleOut (hrow : Fin 32 → EReal) (srow : Fin 16 → EReal) (d0 : Fin 64 → Fin 32 → EReal)
    (d1 : Fin 16 → Fin 64 → EReal) (c0 : Fin 64 → Fin 31 → EReal) (c1 c2 : Fin 64 → Fin 64 → EReal)
    (c3 : Fin 3 → Fin 64 → EReal) : Fin 4 → EReal :=
  join (A := 3) (B := 1) rfl
    (colour (join (A := 16) (B := 15) rfl srow (part 1 15 (by decide) (density hrow d0 d1))) c0 c1 c2 c3)
    (part 0 1 (by decide) (density hrow d0 d1))

/-- A matrix as the family of its rows. -/
def rowsOf {M K : Nat} (x : (⟨2, ![M, K]⟩ : Shape).Idx → EReal) : Fin M → Fin K → EReal := fun n k => x (ix2 n k)

/-- The matrix whose rows are a given family. -/
def ofRows {M K : Nat} (f : Fin M → Fin K → EReal) : (⟨2, ![M, K]⟩ : Shape).Idx → EReal := fun i => f (i 0) (i 1)

theorem rows_rowsOf {M K : Nat} (x : (⟨2, ![M, K]⟩ : Shape).Idx → EReal) : Rows x (rowsOf x) := fun _ _ => rfl

/-- A matrix that holds a family of rows is that family's matrix. -/
theorem eq_ofRows {M K : Nat} {A : (⟨2, ![M, K]⟩ : Shape).Idx → EReal} {f : Fin M → Fin K → EReal} (h : Rows A f) :
    A = ofRows f :=
  funext fun i => (congrArg A (eq_ix2 i)).trans (h (i 0) (i 1))

/-- Every sample of a batch [M, ·] through the network, the weights shared: the whole result [M, 4]. -/
def batchOut {M : Nat} (x0 : (⟨2, ![M, 32]⟩ : Shape).Idx → EReal) (x1 : (⟨2, ![M, 16]⟩ : Shape).Idx → EReal)
    (x2 : (⟨2, ![64, 32]⟩ : Shape).Idx → EReal) (x3 : (⟨2, ![16, 64]⟩ : Shape).Idx → EReal)
    (x4 : (⟨2, ![64, 31]⟩ : Shape).Idx → EReal) (x5 x6 : (⟨2, ![64, 64]⟩ : Shape).Idx → EReal)
    (x7 : (⟨2, ![3, 64]⟩ : Shape).Idx → EReal) : Fin M → Fin 4 → EReal :=
  fun n => sampleOut (rowsOf x0 n) (rowsOf x1 n) (rowsOf x2) (rowsOf x3) (rowsOf x4) (rowsOf x5) (rowsOf x6) (rowsOf x7)

end Cert.Mlp

end
-- ==== Proof.KernelSample.lean ====
/-
  What the kernel body stores for one block of 8192 samples.

  The body transposes its two blocks of sample rows to the feature-major layout, runs every layer with the weight
  matrix on the left, stacks the three colour rows above the density row and transposes back. Sample by sample that
  is the network of `Cert.Mlp.sampleOut` applied to the sample's two rows.
-/
import proofs.«115075_j89790586290648_2_alg».proof.Proof.Gen.KernelIdeal.Skeleton
import proofs.«115075_j89790586290648_2_alg».proof.Proof.MlpSample

noncomputable section

namespace Cert.KernelIdeal.Sample

open Idealize.ShloMosaic Idealize.ShloMosaic.ValueIdx Cert.KernelIdeal Cert.KernelIdeal.Gen
open Cert.Lib.DenseLayer Cert.Lib.RowFamily Cert.Mlp

/-! ## The five products contract the weights' second axis with the features' first -/

theorem plain_d0 : Plain dot_S64x32_S32x8192_S64x8192_1_0_0_1_n_n := Plain.of_fields _ rfl rfl rfl rfl rfl rfl
theorem plain_d1 : Plain dot_S16x64_S64x8192_S16x8192_1_0_0_1_n_n := Plain.of_fields _ rfl rfl rfl rfl rfl rfl
theorem plain_c0 : Plain dot_S64x31_S31x8192_S64x8192_1_0_0_1_n_n := Plain.of_fields _ rfl rfl rfl rfl rfl rfl
theorem plain_c12 : Plain dot_S64x64_S64x8192_S64x8192_1_0_0_1_n_n := Plain.of_fields _ rfl rfl rfl rfl rfl rfl
theorem plain_c3 : Plain dot_S3x64_S64x8192_S3x8192_1_0_0_1_n_n := Plain.of_fields _ rfl rfl rfl rfl rfl rfl

/-- A weight matrix reshaped to its own shape still holds its rows. -/
theorem weights_rows {N K : Nat} (w : (⟨2, ![N, K]⟩ : Shape).Idx → EReal)
    (h : (⟨2, ![N, K]⟩ : Shape).ShapeCasts ⟨2, ![N, K]⟩) : Rows (shapeCast ⟨2, ![N, K]⟩ w h) (rowsOf w) := by
  rw [shapeCast_self]; exact rows_rowsOf w

/-! ## The density head, feature-major -/

/-- The sixteen density-head outputs of every sample of the block. -/
theorem density_cols (v0 : Vec Ideal S8192x32 .f32) (v5 : Vec Ideal S64x32 .bf16) (v11 : Vec Ideal S16x64 .bf16) :
    Cols (k0_pay2 v0 v5 v11) (fun r => density (rowsOf v0 r) (rowsOf v5) (rowsOf v11)) := by
  have h1 := (Cols.of_transpose v0 transposes_S8192x32_p1_0_S32x8192).truncf (φ := .f32) (ψ := .bf16) bitsLt_bf16_f32
  have h2 := ((Cols.matmul (φ₁ := .bf16) plain_d0 (weights_rows v5 shapeCasts_S64x32_S64x32) h1).relu).truncf (φ := .f32) (ψ := .bf16) bitsLt_bf16_f32
  exact Cols.matmul (φ₁ := .bf16) plain_d1 (weights_rows v11 shapeCasts_S16x64_S16x64) h2

/-- Its first output, the density, as a one-row matrix. -/
theorem sigma_cols (v0 : Vec Ideal S8192x32 .f32) (v5 : Vec Ideal S64x32 .bf16) (v11 : Vec Ideal S16x64 .bf16) :
    Cols (k0_pay3 v0 v5 v11) (fun r => part 0 1 (by decide) (density (rowsOf v0 r) (rowsOf v5) (rowsOf v11))) :=
  (density_cols v0 v5 v11).part 0 (by decide) slices_S16x8192_o0_0_S1x8192

/-! ## The colour head's last hidden layer, feature-major -/

/-- The 64 activations that enter the last colour layer, for every sample of the block. -/
theorem hidden_cols (v0 : Vec Ideal S8192x32 .f32) (v3 : Vec Ideal S8192x16 .f32) (v5 : Vec Ideal S64x32 .bf16)
    (v11 : Vec Ideal S16x64 .bf16) (v18 : Vec Ideal S64x31 .bf16) (v24 v30 : Vec Ideal S64x64 .bf16) :
    Cols (k0_pay4 v0 v3 v5 v11 v18 v24 v30) (fun r =>
      relu (dense (relu (dense (relu (dense
        (join (A := 16) (B := 15) rfl (rowsOf v3 r) (part 1 15 (by decide) (density (rowsOf v0 r) (rowsOf v5) (rowsOf v11))))
        (rowsOf v18))) (rowsOf v24))) (rowsOf v30))) := by
  have hs := Cols.of_transpose v3 transposes_S8192x16_p1_0_S16x8192
  have hd := (density_cols v0 v5 v11).part 1 (L' := 15) (by decide) slices_S16x8192_o1_0_S15x8192
  have hx := (Cols.join hs hd (C := 31) rfl concatenates_S16x8192_S15x8192_S31x8192_d0).truncf (φ := .f32) (ψ := .bf16) bitsLt_bf16_f32
  have h1 := ((Cols.matmul (φ₁ := .bf16) plain_c0 (weights_rows v18 shapeCasts_S64x31_S64x31) hx).relu).truncf (φ := .f32) (ψ := .bf16) bitsLt_bf16_f32
  have h2 := ((Cols.matmul (φ₁ := .bf16) plain_c12 (weights_rows v24 shapeCasts_S64x64_S64x64) h1).relu).truncf (φ := .f32) (ψ := .bf16) bitsLt_bf16_f32
  exact ((Cols.matmul (φ₁ := .bf16) plain_c12 (weights_rows v30 shapeCasts_S64x64_S64x64) h2).relu).truncf (φ := .f32) (ψ := .bf16) bitsLt_bf16_f32

/-! ## The stored block, sample-major -/

/-- The last layer, the density row stacked under the three colour rows, and the transpose back to sample rows. -/
theorem stored_rows {f : Fin 8192 → Fin 64 → EReal} {g : Fin 8192 → Fin 1 → EReal}
    (v14 : FVec Ideal S1x8192 .f32) (v35 : FVec Ideal S64x8192 .bf16) (v36 : Vec Ideal S3x64 .bf16)
    (h14 : Cols v14 g) (h35 : Cols v35 f) :
    Rows (k0_pay1 v14 v35 v36) (fun r => join (A := 3) (B := 1) rfl (dense (f r) (rowsOf v36)) (g r)) :=
  (Cols.join (Cols.matmul (φ₁ := .bf16) plain_c3 (weights_rows v36 shapeCasts_S3x64_S3x64) h35) h14 (C := 4) rfl
    concatenates_S3x8192_S1x8192_S4x8192_d0).transpose transposes_S4x8192_p1_0_S8192x4

/-- THE BODY'S RESULT for one block: every sample's row is the network applied to the sample's rows of the two input
    blocks, with the six weight matrices as loaded. -/
theorem body_rows (x0 : Vec Ideal S8192x32 .f32) (x1 : Vec Ideal S8192x16 .f32) (x2 : Vec Ideal S64x32 .bf16)
    (x3 : Vec Ideal S16x64 .bf16) (x4 : Vec Ideal S64x31 .bf16) (x5 x6 : Vec Ideal S64x64 .bf16) (x7 : Vec Ideal S3x64 .bf16) :
    Rows (k0_pay1 (k0_pay3 x0 x2 x3) (k0_pay4 x0 x1 x2 x3 x4 x5 x6) x7) (batchOut x0 x1 x2 x3 x4 x5 x6 x7) :=
  stored_rows _ _ x7 (sigma_cols x0 x2 x3) (hidden_cols x0 x1 x2 x3 x4 x5 x6)

end Cert.KernelIdeal.Sample

end
-- ==== Proof.KernelWhole.lean ====
/-
  From the blocks to the whole result array.

  Grid point t stages rows 8192·t … 8192·t + 8191 of the two sample arrays and the whole of each weight matrix (as
  the host's change of float format leaves it: unchanged at the extended reals), and writes back rows
  8192·t … 8192·t + 8191 of the result. What it writes is the network applied to each of those samples, so it is
  block t of ONE array — every sample of the batch through the network — and the 256 blocks cover the result.
-/
import proofs.«115075_j89790586290648_2_alg».proof.Proof.Gen.KernelIdeal.Value
import proofs.«115075_j89790586290648_2_alg».proof.Proof.KernelSample
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.Lib.RowFamily Cert.Mlp

/-! ## One block, over variables -/

/-- If the two sample blocks hold the rows of their arrays from row `off` on, and the six weight blocks hold their
    whole matrices, the body's result at (r, j) is the network's j-th result for sample `off + r`. -/
theorem block_rows (X0 : (⟨2, ![2097152, 32]⟩ : Shape).Idx → EReal) (X1 : (⟨2, ![2097152, 16]⟩ : Shape).Idx → EReal)
    (X2 : (⟨2, ![64, 32]⟩ : Shape).Idx → EReal) (X3 : (⟨2, ![16, 64]⟩ : Shape).Idx → EReal)
    (X4 : (⟨2, ![64, 31]⟩ : Shape).Idx → EReal) (X5 X6 : (⟨2, ![64, 64]⟩ : Shape).Idx → EReal)
    (X7 : (⟨2, ![3, 64]⟩ : Shape).Idx → EReal)
    (b0 : Vec Ideal S8192x32 .f32) (b1 : Vec Ideal S8192x16 .f32) (b2 : Vec Ideal S64x32 .bf16)
    (b3 : Vec Ideal S16x64 .bf16) (b4 : Vec Ideal S64x31 .bf16) (b5 b6 : Vec Ideal S64x64 .bf16) (b7 : Vec Ideal S3x64 .bf16)
    (off : Nat) (hoff : off + 8192 ≤ 2097152)
    (h0 : ∀ (r : Fin 8192) (k : Fin 32), b0 (ix2 r k) = X0 (ix2 ⟨off + r.val, by have := r.isLt; omega⟩ k))
    (h1 : ∀ (r : Fin 8192) (k : Fin 16), b1 (ix2 r k) = X1 (ix2 ⟨off + r.val, by have := r.isLt; omega⟩ k))
    (h2 : b2 = X2) (h3 : b3 = X3) (h4 : b4 = X4) (h5 : b5 = X5) (h6 : b6 = X6) (h7 : b7 = X7)
    (y : S8192x4.Idx) :
    k0_pay1 (k0_pay3 b0 b2 b3) (k0_pay4 b0 b1 b2 b3 b4 b5 b6) b7 y
      = batchOut X0 X1 X2 X3 X4 X5 X6 X7 ⟨off + (y 0).val, by have := idx2_lt0 y; omega⟩ (y 1) := by
  subst h2 h3 h4 h5 h6 h7
  obtain ⟨r, j, rfl⟩ : ∃ (r : Fin 8192) (j : Fin 4), y = ix2 r j := ⟨y 0, y 1, eq_ix2 y⟩
  rw [Sample.body_rows b0 b1 b2 b3 b4 b5 b6 b7 r j]
  unfold batchOut
  have e0 : rowsOf b0 r = rowsOf X0 ⟨off + r.val, by have := r.isLt; omega⟩ := funext fun k => h0 r k
  have e1 : rowsOf b1 r = rowsOf X1 ⟨off + r.val, by have := r.isLt; omega⟩ := funext fun k => h1 r k
  rw [e0, e1]

variable (m : (ℓ : Loc nD τ sig) → Buf (Elt Ideal) ℓ) (ρ : Dev nD → PrngReg)

/-! ## The arrays as the region finds them -/

/-- The host casts each weight matrix to a narrower float format before the call: at the extended reals the cast
    matrix is the argument itself. -/
theorem V_d0 (c : Dev nD) : (V m c main_v0 : S64x32.Idx → EReal) = m ((c : Thread nD τ).loc main_arg2) := by
  dsimp only [Gen.V, Gen.hostOps0]; after_results; rfl
theorem V_d1 (c : Dev nD) : (V m c main_v1 : S16x64.Idx → EReal) = m ((c : Thread nD τ).loc main_arg3) := by
  dsimp only [Gen.V, Gen.hostOps0]; after_results; rfl
theorem V_c0 (c : Dev nD) : (V m c main_v2 : S64x31.Idx → EReal) = m ((c : Thread nD τ).loc main_arg4) := by
  dsimp only [Gen.V, Gen.hostOps0]; after_results; rfl
theorem V_c1 (c : Dev nD) : (V m c main_v3 : S64x64.Idx → EReal) = m ((c : Thread nD τ).loc main_arg5) := by
  dsimp only [Gen.V, Gen.hostOps0]; after_results; rfl
theorem V_c2 (c : Dev nD) : (V m c main_v4 : S64x64.Idx → EReal) = m ((c : Thread nD τ).loc main_arg6) := by
  dsimp only [Gen.V, Gen.hostOps0]; after_results; rfl
theorem V_c3 (c : Dev nD) : (V m c main_v5 : S3x64.Idx → EReal) = m ((c : Thread nD τ).loc main_arg7) := by
  dsimp only [Gen.V, Gen.hostOps0]; after_results; rfl

/-! ## Where each window's block sits -/

/-- The printed index maps over the 256 grid points: the two sample windows and the result window are at block row t,
    block column 0; the six weight windows are at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The hash-feature block at point t holds rows 8192·t … of the array. -/
theorem blk0_read (c : Dev nD) (t : Fin cfg0.N) (r : Fin 8192) (k : Fin 32) (h : t.val * 8192 + r.val < 2097152) :
    iblk m c 0 t (ix2 r k) = V m c main_arg0 (ix2 ⟨t.val * 8192 + r.val, h⟩ k) := by
  obtain ⟨e0, e1, -⟩ := idx_facts t
  show V m c main_arg0 (((cfg0.win 0).blk t).view.emb (ix2 r k)) = V m c main_arg0 _
  refine congrArg (V m c main_arg0) ?_
  funext a; apply Fin.ext
  match a with
  | ⟨0, _⟩ => show win0_0.index t (0 : Fin 2) * 8192 + 1 * r.val = t.val * 8192 + r.val; rw [e0]; omega
  | ⟨1, _⟩ => show win0_0.index t (1 : Fin 2) * 32 + 1 * k.val = k.val; rw [e1]; omega

/-- The spherical-harmonics block at point t holds rows 8192·t … of the array. -/
theorem blk1_read (c : Dev nD) (t : Fin cfg0.N) (r : Fin 8192) (k : Fin 16) (h : t.val * 8192 + r.val < 2097152) :
    iblk m c 1 t (ix2 r k) = V m c main_arg1 (ix2 ⟨t.val * 8192 + r.val, h⟩ k) := by
  obtain ⟨-, -, e0, e1, -⟩ := idx_facts t
  show V m c main_arg1 (((cfg0.win 1).blk t).view.emb (ix2 r k)) = V m c main_arg1 _
  refine congrArg (V m c main_arg1) ?_
  funext a; apply Fin.ext
  match a with
  | ⟨0, _⟩ => show win0_1.index t (0 : Fin 2) * 8192 + 1 * r.val = t.val * 8192 + r.val; rw [e0]; omega
  | ⟨1, _⟩ => show win0_1.index t (1 : Fin 2) * 16 + 1 * k.val = k.val; rw [e1]; omega

/-- Each weight block is its whole matrix, at every point. -/
theorem blk2_read (c : Dev nD) (t : Fin cfg0.N) : (iblk m c 2 t : S64x32.Idx → EReal) = V m c main_v0 := by
  obtain ⟨-, -, -, -, e0, e1, -⟩ := idx_facts t
  funext i
  show V m c main_v0 (((cfg0.win 2).blk t).view.emb i) = V m c main_v0 i
  refine congrArg (V m c main_v0) ?_
  funext a; apply Fin.ext
  match a with
  | ⟨0, _⟩ => show win0_2.index t (0 : Fin 2) * 64 + 1 * (i 0).val = (i 0).val; rw [e0]; omega
  | ⟨1, _⟩ => show win0_2.index t (1 : Fin 2) * 32 + 1 * (i 1).val = (i 1).val; rw [e1]; omega

theorem blk3_read (c : Dev nD) (t : Fin cfg0.N) : (iblk m c 3 t : S16x64.Idx → EReal) = V m c main_v1 := by
  obtain ⟨-, -, -, -, -, -, e0, e1, -⟩ := idx_facts t
  funext i
  show V m c main_v1 (((cfg0.win 3).blk t).view.emb i) = V m c main_v1 i
  refine congrArg (V m c main_v1) ?_
  funext a; apply Fin.ext
  match a with
  | ⟨0, _⟩ => show win0_3.index t (0 : Fin 2) * 16 + 1 * (i 0).val = (i 0).val; rw [e0]; omega
  | ⟨1, _⟩ => show win0_3.index t (1 : Fin 2) * 64 + 1 * (i 1).val = (i 1).val; rw [e1]; omega

theorem blk4_read (c : Dev nD) (t : Fin cfg0.N) : (iblk m c 4 t : S64x31.Idx → EReal) = V m c main_v2 := by
  obtain ⟨-, -, -, -, -, -, -, -, e0, e1, -⟩ := idx_facts t
  funext i
  show V m c main_v2 (((cfg0.win 4).blk t).view.emb i) = V m c main_v2 i
  refine congrArg (V m c main_v2) ?_
  funext a; apply Fin.ext
  match a with
  | ⟨0, _⟩ => show win0_4.index t (0 : Fin 2) * 64 + 1 * (i 0).val = (i 0).val; rw [e0]; omega
  | ⟨1, _⟩ => show win0_4.index t (1 : Fin 2) * 31 + 1 * (i 1).val = (i 1).val; rw [e1]; omega

theorem blk5_read (c : Dev nD) (t : Fin cfg0.N) : (iblk m c 5 t : S64x64.Idx → EReal) = V m c main_v3 := by
  obtain ⟨-, -, -, -, -, -, -, -, -, -, e0, e1, -⟩ := idx_facts t
  funext i
  show V m c main_v3 (((cfg0.win 5).blk t).view.emb i) = V m c main_v3 i
  refine congrArg (V m c main_v3) ?_
  funext a; apply Fin.ext
  match a with
  | ⟨0, _⟩ => show win0_5.index t (0 : Fin 2) * 64 + 1 * (i 0).val = (i 0).val; rw [e0]; omega
  | ⟨1, _⟩ => show win0_5.index t (1 : Fin 2) * 64 + 1 * (i 1).val = (i 1).val; rw [e1]; omega

theorem blk6_read (c : Dev nD) (t : Fin cfg0.N) : (iblk m c 6 t : S64x64.Idx → EReal) = V m c main_v4 := by
  obtain ⟨-, -, -, -, -, -, -, -, -, -, -, -, e0, e1, -⟩ := idx_facts t
  funext i
  show V m c main_v4 (((cfg0.win 6).blk t).view.emb i) = V m c main_v4 i
  refine congrArg (V m c main_v4) ?_
  funext a; apply Fin.ext
  match a with
  | ⟨0, _⟩ => show win0_6.index t (0 : Fin 2) * 64 + 1 * (i 0).val = (i 0).val; rw [e0]; omega
  | ⟨1, _⟩ => show win0_6.index t (1 : Fin 2) * 64 + 1 * (i 1).val = (i 1).val; rw [e1]; omega

theorem blk7_read (c : Dev nD) (t : Fin cfg0.N) : (iblk m c 7 t : S3x64.Idx → EReal) = V m c main_v5 := by
  obtain ⟨-, -, -, -, -, -, -, -, -, -, -, -, -, -, e0, e1, -⟩ := idx_facts t
  funext i
  show V m c main_v5 (((cfg0.win 7).blk t).view.emb i) = V m c main_v5 i
  refine congrArg (V m c main_v5) ?_
  funext a; apply Fin.ext
  match a with
  | ⟨0, _⟩ => show win0_7.index t (0 : Fin 2) * 3 + 1 * (i 0).val = (i 0).val; rw [e0]; omega
  | ⟨1, _⟩ => show win0_7.index t (1 : Fin 2) * 64 + 1 * (i 1).val = (i 1).val; rw [e1]; omega

/-! ## The whole array -/

/-- Every sample of the batch through the network, on the arrays as the region finds them. -/
def GV (c : Dev nD) : S2097152x4.Idx → EReal :=
  ofRows (batchOut (M := 2097152) (V m c main_arg0) (V m c main_arg1) (V m c main_v0) (V m c main_v1) (V m c main_v2)
    (V m c main_v3) (V m c main_v4) (V m c main_v5))

/-- The same on the argument arrays as launched. -/
def G (c : Dev nD) : S2097152x4.Idx → EReal :=
  ofRows (batchOut (M := 2097152) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)))

theorem GV_eq (c : Dev nD) : GV m c = G m c := by
  unfold GV G
  rw [V_main_arg0, V_main_arg1, V_d0, V_d1, V_c0, V_c1, V_c2, V_c3]

theorem hz : (![0, 0] : Fin 2 → Nat) = fun _ => 0 := funext fun a => by fin_cases a <;> rfl

/-- WHAT POINT t WRITES BACK is block t of the whole array. -/
theorem flushed_eq (c : Dev nD) (t : Fin cfg0.N) :
    (dats m 0 c).flushed 8 t = ((cfg0.win 8).blk t).view.read (Elt Ideal) (GV m c) := by
  have hN : grid0.N = 256 := N_0
  have ht : t.val < 256 := by have : t.val < grid0.N := t.isLt; omega
  rw [Value.flushed8]
  unfold out0_8
  rw [View.canon_unit_zero hz]
  simp only [View.ld_unit_zero (S := S8192x32) hz, View.ld_unit_zero (S := S8192x16) hz, View.ld_unit_zero (S := S64x32) hz,
    View.ld_unit_zero (S := S16x64) hz, View.ld_unit_zero (S := S64x31) hz, View.ld_unit_zero (S := S64x64) hz,
    View.ld_unit_zero (S := S3x64) hz]
  obtain ⟨-, -, -, -, -, -, -, -, -, -, -, -, -, -, -, -, e0, e1⟩ := idx_facts t
  funext y
  show k0_pay1 (k0_pay3 (iblk m c 0 t) (iblk m c 2 t) (iblk m c 3 t))
      (k0_pay4 (iblk m c 0 t) (iblk m c 1 t) (iblk m c 2 t) (iblk m c 3 t) (iblk m c 4 t) (iblk m c 5 t) (iblk m c 6 t))
      (iblk m c 7 t) y = GV m c (((cfg0.win 8).blk t).view.emb y)
  have hy0 : (y 0).val < 8192 := (y 0).isLt
  have hy1 : (y 1).val < 4 := (y 1).isLt
  refine (block_rows (V m c main_arg0) (V m c main_arg1) (V m c main_v0) (V m c main_v1) (V m c main_v2) (V m c main_v3)
    (V m c main_v4) (V m c main_v5) (iblk m c 0 t) (iblk m c 1 t) (iblk m c 2 t) (iblk m c 3 t) (iblk m c 4 t)
    (iblk m c 5 t) (iblk m c 6 t) (iblk m c 7 t) (t.val * 8192) (by omega)
    (fun r k => blk0_read m c t r k _) (fun r k => blk1_read m c t r k _)
    (blk2_read m c t) (blk3_read m c t) (blk4_read m c t) (blk5_read m c t) (blk6_read m c t) (blk7_read m c t) y).trans ?_
  have ea : (((cfg0.win 8).blk t).view.emb y) 0 = (⟨t.val * 8192 + (y 0).val, by omega⟩ : Fin 2097152) :=
    Fin.ext (by show win0_8.index t (0 : Fin 2) * 8192 + 1 * (y 0).val = t.val * 8192 + (y 0).val; rw [e0]; omega)
  have eb : (((cfg0.win 8).blk t).view.emb y) 1 = (y 1 : Fin 4) :=
    Fin.ext (by show win0_8.index t (1 : Fin 2) * 4 + 1 * (y 1).val = (y 1).val; rw [e1]; omega)
  exact (congrArg₂ (batchOut (M := 2097152) (V m c main_arg0) (V m c main_arg1) (V m c main_v0) (V m c main_v1) (V m c main_v2)
    (V m c main_v3) (V m c main_v4) (V m c main_v5)) ea eb).symm

/-- An index of the result is in point t's block iff each coordinate is in the block's range on its axis. -/
theorem mem_blk (t : Fin cfg0.N) (i : S2097152x4.Idx) :
    i ∈ ((cfg0.win 8).blk t).view.set ↔ ∀ a : Fin 2, win0_8.index t a * S8192x4.size a ≤ (i a).val ∧ (i a).val < win0_8.index t a * S8192x4.size a + S8192x4.size a := by
  show i ∈ ((View.whole main_v6).slice (win0_8.rect t)).set ↔ _
  rw [View.set_slice_whole, Rect.mem_set_unit]
  exact Iff.rfl

/-- Row n of the result is in the block of point n / 8192. -/
theorem cover (i : S2097152x4.Idx) : ∃ t : Fin cfg0.N, (cfg0.win 8).flush t = true ∧ i ∈ ((cfg0.win 8).blk t).view.set := by
  have hN : grid0.N = 256 := N_0
  have hi0 : (i 0).val < 2097152 := (i 0).isLt
  have hi1 : (i 1).val < 4 := (i 1).isLt
  obtain ⟨t, ht⟩ : ∃ t : Fin cfg0.N, t.val = (i 0).val / 8192 := ⟨⟨(i 0).val / 8192, by show _ < grid0.N; omega⟩, rfl⟩
  obtain ⟨-, -, -, -, -, -, -, -, -, -, -, -, -, -, -, -, e0, e1⟩ := idx_facts t
  refine ⟨t, flush0_8 t, ?_⟩
  rw [mem_blk]
  intro a
  match a with
  | ⟨0, _⟩ => show win0_8.index t (0 : Fin 2) * 8192 ≤ (i 0).val ∧ (i 0).val < win0_8.index t (0 : Fin 2) * 8192 + 8192; rw [e0]; omega
  | ⟨1, _⟩ => show win0_8.index t (1 : Fin 2) * 4 ≤ (i 1).val ∧ (i 1).val < win0_8.index t (1 : Fin 2) * 4 + 4; rw [e1]; omega

/-- THE RESULT ARRAY after the run: every sample of the batch through the network. -/
theorem final (c : Dev nD) : (dats m 0 c).arrAt 8 cfg0.N = G m c :=
  ((dats m 0 c).arrAt_eq_of_cover 8 (GV m c) (fun t _ => flushed_eq m c t) cover).trans (GV_eq m c)

/-- The kernel's run: the result array at that function of the arguments, the arguments unchanged. -/
theorem run : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.ReferenceSample.lean ====
/-
  What the reference computes, sample by sample.

  The reference keeps the samples as rows: every layer multiplies by the transposed weight matrix on the right, the
  density is the first column of the density head's result, and the colour head's input is the spherical-harmonics
  row followed by the other fifteen columns. Row by row that is the network of `Cert.Mlp.sampleOut`.
-/
import proofs.«115075_j89790586290648_2_alg».proof.Proof.Gen.ReferenceIdeal.Read
import proofs.«115075_j89790586290648_2_alg».proof.Proof.MlpSample

noncomputable section

namespace Cert.ReferenceIdeal.Sample

open Idealize.ShloMosaic Idealize.ShloMosaic.ValueIdx Cert.ReferenceIdeal Cert.ReferenceIdeal.Gen Cert.ReferenceIdeal.Read
open Cert.Lib.DenseLayer Cert.Lib.RowFamily Cert.Mlp

/-! ## The five products contract the samples' second axis with the transposed weights' first -/

theorem plain_d0 : Plain dot_S2097152x32_S32x64_S2097152x64_1_0_0_1_n_n := Plain.of_fields _ rfl rfl rfl rfl rfl rfl
theorem plain_d1 : Plain dot_S2097152x64_S64x16_S2097152x16_1_0_0_1_n_n := Plain.of_fields _ rfl rfl rfl rfl rfl rfl
theorem plain_c0 : Plain dot_S2097152x31_S31x64_S2097152x64_1_0_0_1_n_n := Plain.of_fields _ rfl rfl rfl rfl rfl rfl
theorem plain_c12 : Plain dot_S2097152x64_S64x64_S2097152x64_1_0_0_1_n_n := Plain.of_fields _ rfl rfl rfl rfl rfl rfl
theorem plain_c3 : Plain dot_S2097152x64_S64x3_S2097152x3_1_0_0_1_n_n := Plain.of_fields _ rfl rfl rfl rfl rfl rfl

/-- The density head's sixteen outputs, one row per sample. -/
theorem density_rows (x0 : FVec Ideal S2097152x32 .f32) (x2 : FVec Ideal S64x32 .f32) (x3 : FVec Ideal S16x64 .f32) :
    Rows (val_main_v4 (F := Ideal) x0 x2 x3) (fun n => density (rowsOf x0 n) (rowsOf x2) (rowsOf x3)) := by
  have h1 := (Rows.dot plain_d0 (rows_rowsOf x0) (rows_rowsOf x2) transposes_S64x32_S32x64_1_0).relu bcast_S_S2097152x64
  exact Rows.dot plain_d1 h1 (rows_rowsOf x3) transposes_S16x64_S64x16_1_0

/-- THE REFERENCE'S RESULT: every row is the network applied to the sample's rows of the two inputs. -/
theorem result_rows (x0 : FVec Ideal S2097152x32 .f32) (x1 : FVec Ideal S2097152x16 .f32) (x2 : FVec Ideal S64x32 .f32)
    (x3 : FVec Ideal S16x64 .f32) (x4 : FVec Ideal S64x31 .f32) (x5 x6 : FVec Ideal S64x64 .f32) (x7 : FVec Ideal S3x64 .f32) :
    Rows (val_main_v21 (F := Ideal) x0 x1 x2 x3 x4 x5 x6 x7) (batchOut x0 x1 x2 x3 x4 x5 x6 x7) := by
  have hd := density_rows x0 x2 x3
  have hx := Rows.join (rows_rowsOf x1) (hd.part 1 (L' := 15) (by decide) slices_S2097152x16_S2097152x15_0_1) (C := 31) rfl
    concatenates_S2097152x16_S2097152x15_S2097152x31_d1
  have h1 := (Rows.dot plain_c0 hx (rows_rowsOf x4) transposes_S64x31_S31x64_1_0).relu bcast_S_S2097152x64
  have h2 := (Rows.dot plain_c12 h1 (rows_rowsOf x5) transposes_S64x64_S64x64_1_0).relu bcast_S_S2097152x64
  have h3 := (Rows.dot plain_c12 h2 (rows_rowsOf x6) transposes_S64x64_S64x64_1_0).relu bcast_S_S2097152x64
  have hc := Rows.dot plain_c3 h3 (rows_rowsOf x7) transposes_S3x64_S64x3_1_0
  have hs := (hd.part 0 (L' := 1) (by decide) slices_S2097152x16_S2097152x1_0_0).column_again
    shapeCasts_S2097152x1_S2097152 bcast_S2097152_S2097152x1_0
  exact Rows.join hc hs (C := 4) rfl concatenates_S2097152x3_S2097152x1_S2097152x4_d1

end Cert.ReferenceIdeal.Sample

end
-- ==== Proof.lean ====
/-
  The kernel and the reference compute one function at the extended reals.

  Both programs send every sample of the batch — a row of 32 hash-grid features and a row of 16 spherical-harmonics
  features — through the same network (a density head 32 → 64 → 16 and a colour head 31 → 64 → 64 → 64 → 3, a maximum
  with zero after every layer but each head's last, the weights stored [out, in]) and return the three colours
  followed by the density. The reference keeps the samples as rows and multiplies by the transposed weights on the
  right; the kernel takes 8192 samples at a time, transposes them so that the samples are columns, multiplies by the
  weights on the left, and transposes the result back. Entry by entry the two are the same sums of the same products,
  the factors of each product in the other order: the only law used is the commutativity of the product, which holds
  for every pair of extended reals, so the precondition on the inputs is never opened. The changes of float format
  (the host's casts of the weights, the body's casts before each product) are the identity at the extended reals, and
  the zero accumulator of each product adds nothing.

  Proof/MlpSample.lean states the network on one sample; Proof/KernelSample.lean reads the kernel body's stored block
  as that function of the block's samples, Proof/KernelWhole.lean the whole result array after the run;
  Proof/ReferenceSample.lean reads the reference's result as the same function. The kernel's idealization rewrote
  nothing, so there is nothing to preserve.
-/
import proofs.«115075_j89790586290648_2_alg».proof.Defs
import proofs.«115075_j89790586290648_2_alg».proof.Proof.Gen.Kernel
import proofs.«115075_j89790586290648_2_alg».proof.Proof.Gen.Kernel.Skeleton
import proofs.«115075_j89790586290648_2_alg».proof.Proof.Gen.Kernel.Launch
import proofs.«115075_j89790586290648_2_alg».proof.Proof.Gen.Kernel.Points
import proofs.«115075_j89790586290648_2_alg».proof.Proof.Gen.Kernel.Frame
import proofs.«115075_j89790586290648_2_alg».proof.Proof.Gen.KernelIdeal
import proofs.«115075_j89790586290648_2_alg».proof.Proof.Gen.KernelIdeal.Skeleton
import proofs.«115075_j89790586290648_2_alg».proof.Proof.Gen.KernelIdeal.Launch
import proofs.«115075_j89790586290648_2_alg».proof.Proof.Gen.KernelIdeal.Points
import proofs.«115075_j89790586290648_2_alg».proof.Proof.Gen.KernelIdeal.Frame
import proofs.«115075_j89790586290648_2_alg».proof.Proof.Gen.ReferenceIdeal
import proofs.«115075_j89790586290648_2_alg».proof.Proof.Gen.KernelIdeal.Value
import proofs.«115075_j89790586290648_2_alg».proof.Proof.Gen.ReferenceIdeal.Run
import proofs.«115075_j89790586290648_2_alg».proof.Proof.Gen.ReferenceIdeal.Read
import proofs.«115075_j89790586290648_2_alg».proof.Proof.Gen.Pre_finite_inputs
import proofs.«115075_j89790586290648_2_alg».proof.Proof.KernelWhole
import proofs.«115075_j89790586290648_2_alg».proof.Proof.ReferenceSample
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result: every sample of the batch
    through the network. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v21_eq,
    Cert.Mlp.eq_ofRows (Cert.ReferenceIdeal.Sample.result_rows _ _ _ _ _ _ _ _), a0, a1, a2, a3, a4, a5, a6, a7]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
